-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x16 : S_.BroadcastsInDim S1600000x16 (![] : Fin 0 → Fin S1600000x16.rank)
  reducesTo_S1600000x16_S_d0_1 : S1600000x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S64x64 .f32) (main_arg6 : FVec F S64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1600000 32) (main_arg2 : FVec F S1600000x16 .f32) (main_arg3 : FVec F S16x64 .f32) (main_arg4 : FVec F S64 .f32) (main_arg5 : FVec F S64x64 .f32) (main_arg6 : FVec F S64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x16 .f32 := Host.absf main_arg2
  let main_cst_0 : FVec F S_ .f32 := constant S_ .f32 0x7F800000#32
  let main_v5 : FVec F S1600000x16 .f32 := broadcastInDim S1600000x16 ![] bcast_S_S1600000x16 main_cst_0
  let main_v6 : IVec S1600000x16 1 := cmpf .olt main_v4 main_v5
  let main_c_1 : IVec S_ 1 := constantI S_ 1 1#1
  let main_v7 : IVec S_ 1 := (fun x v => Host.reduce IntOp.andi x v reducesTo_S1600000x16_S_d0_1 h_S_) main_v6 main_c_1
  let main_v8 : IVec S_ 1 := andi main_v3 main_v7
  let main_v9 : FVec F S16x64 .f32 := Host.absf main_arg3
  let main_cst_2 : FVec F S_ .f32 := constant S_ .f32 0x7F800000#32
  let main_v10 : FVec F S16x64 .f32 := broadcastInDim S16x64 ![] bcast_S_S16x64 main_cst_2
  let main_v11 : IVec S16x64 1 := cmpf .olt main_v9 main_v10
  let main_c_3 : IVec S_ 1 := constantI S_ 1 1#1
  let main_v12 : IVec S_ 1 := (fun x v => Host.reduce IntOp.andi x v reducesTo_S16x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_v13 main_v16
-- ==== Kernel.lean ====
abbrev S100000x64 : Shape := ⟨2, ![100000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S8000x16 : Shape := ⟨2, ![8000, 16]⟩
abbrev S8000x64 : Shape := ⟨2, ![8000, 64]⟩
abbrev S10000x64 : Shape := ⟨2, ![10000, 64]⟩

abbrev nBuf : Space → Nat
  | .hbm => 31
  | .vmem => 18
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x64, .f32⟩
  | .hbm, ⟨22, _⟩ => ⟨S1x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S1x64, .f32⟩
  | .hbm, ⟨29, _⟩ => ⟨S1x64, .f32⟩
  | .hbm, ⟨30, _⟩ => ⟨S100000x64, .f32⟩
  | .local _ .vmem, ⟨0, _⟩ => ⟨S8000x16, .f32⟩
  | .local _ .vmem, ⟨1, _⟩ => ⟨S8000x16, .f32⟩
  | .local _ .vmem, ⟨2, _⟩ => ⟨S8000x64, .f32⟩
  | .local _ .vmem, ⟨3, _⟩ => ⟨S8000x64, .f32⟩
  | .local _ .vmem, ⟨4, _⟩ => ⟨S16x64, .f32⟩
  | .local _ .vmem, ⟨5, _⟩ => ⟨S1x64, .f32⟩
  | .local _ .vmem, ⟨6, _⟩ => ⟨S8000x64, .f32⟩
  | .local _ .vmem, ⟨7, _⟩ => ⟨S8000x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S8000x16_S8000x16_0_0 : ∀ a, (![0, 0] : Fin 2 → Nat) a + S8000x16.size a ≤ S8000x16.size a
  h_S8000x16 : 0 < S8000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  dot_S8000x16_S16x64_S8000x64_1_0_0_1_n_n_wf : DotDims.WF S8000x16 S16x64 S8000x64 [1] [0] [0] [1] [] []
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x16.size a ≤ S1600000x16.size a
  hwx0_0 : ∀ i : grid0.Coords, EltTy.bits .f32 = 32 ∨ (Rect.block (s := S1600000x16) S8000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1600000x64.size a
  hwx0_1 : ∀ i : grid0.Coords, EltTy.bits .f32 = 32 ∨ (Rect.block (s := S1600000x64) S8000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x64.size a ≤ S16x64.size a
  hwx0_2 : ∀ i : grid0.Coords, EltTy.bits .f32 = 32 ∨ (Rect.block (s := S16x64) S16x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8000x64.size a ≤ S1600000x64.size a
  hwx0_4 : ∀ i : grid0.Coords, EltTy.bits .f32 = 32 ∨ (Rect.block (s := S1600000x64) S8000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x64.size a ≤ S100000x64.size a
  hwx1_6 : ∀ i : grid1.Coords, EltTy.bits .f32 = 32 ∨ (Rect.block (s := S100000x64) S10000x64.size (cc1_transform_6 i) (hinb1_6 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg2) S8000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S8000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S10000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000x16 : Shape := ⟨2, ![1600000, 16]⟩
abbrev S16x64 : Shape := ⟨2, ![16, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1600000x64 : Shape := ⟨2, ![1600000, 64]⟩
abbrev S1x64 : Shape := ⟨2, ![1, 64]⟩
abbrev S_ : Shape := ⟨0, ![]⟩
abbrev S1600000x1 : Shape := ⟨2, ![1600000, 1]⟩

abbrev nBuf : Space → Nat
  | .hbm => 49
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000x16, .f32⟩
  | .hbm, ⟨3, _⟩ => ⟨S16x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x64, .f32⟩
  | .hbm, ⟨14, _⟩ => ⟨S1x64, .f32⟩
  | .hbm, ⟨15, _⟩ => ⟨S1600000x64, .f32⟩
  | .hbm, ⟨16, _⟩ => ⟨S1600000x64, .f32⟩
  | .hbm, ⟨17, _⟩ => ⟨S_, .i32⟩
  | .hbm, ⟨18, _⟩ => ⟨S1600000, .i32⟩
  | .hbm, ⟨19, _⟩ => ⟨S1600000, .i1⟩
  | .hbm, ⟨20, _⟩ => ⟨S_, .i32⟩
  | .hbm, ⟨21, _⟩ => ⟨S1600000, .i32⟩
  | .hbm, ⟨22, _⟩ => ⟨S1600000, .i32⟩
  | .hbm, ⟨23, _⟩ => ⟨S1600000, .i32⟩
  | .hbm, ⟨24, _⟩ => ⟨S1600000x1, .i32⟩
  | .hbm, ⟨25, _⟩ => ⟨S1600000x64, .f32⟩
  | .hbm, ⟨26, _⟩ => ⟨S1600000x64, .f32⟩
  | .hbm, ⟨27, _⟩ => ⟨S_, .f32⟩
  | .hbm, ⟨28, _⟩ => ⟨S1600000x64, .f32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S1x64, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S1x64, .f32⟩
  | .hbm, ⟨47, _⟩ => ⟨S100000x64, .f32⟩
  | .hbm, ⟨48, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call0_cst : Ref sig .tc := ⟨.hbm, 27, rfl⟩
abbrev main_call0_v0 : Ref sig .tc := ⟨.hbm, 28, rfl⟩
abbrev main_v16 : Ref sig .tc := ⟨.hbm, 29, rfl⟩
abbrev main_cst : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_1 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call1_cst : Ref sig .tc := ⟨.hbm, 42, rfl⟩
abbrev main_call1_v0 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x64 : S_.BroadcastsInDim S1600000x64 (![] : Fin 0 → Fin S1600000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S1600000x16_S16x64_S1600000x64_1_0_0_1_n_n_wf : DotDims.WF S1600000x16 S16x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def dot_S1600000x16_S16x64_S1600000x64_1_0_0_1_n_n : DotDims S1600000x16 S16x64 S1600000x64 where
  lhsContracting := [1]
  rhsContracting := [0]
  lhsNonContracting := [0]
  rhsNonContracting := [1]
  lhsBatch := []
  rhsBatch := []
  wf := dot_S1600000x16_S16x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KernelRun.lean ====
/-
  The idealized kernel's run with its result named.

  The program is four segments: the host operations before the first pallas_call (slices of the edge list, the
  gather of source rows, a reshape), the edge-message call, the host operations between the calls (the
  scatter-add by destination, two reshapes) and the node-update call. The generated frame walks the segments and
  keeps, for every unscoped buffer, its contents at each boundary; after the last segment those contents are
  `Gen.W4 m ρ c`. Its own statement reads back only the argument arrays. Here the same walk is read back at the
  result array as well: the result ends at `Gen.W4 m ρ c` at the result's reference.
-/
import proofs.«149815_j89567247991615_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched. -/
theorem run_named : θ_run defs (onTc (τ := τ) (main (F := F))) ⟨m, fun _ => 0, ρ⟩ (fun r => ∀ c : Dev nD,
      r.2.mem ((c.tc : Thread nD τ).loc main_v18) = W4 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v18 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.Plumb.lean ====
/-
  The index plumbing both programs share, named once.

  Around its dense stages the layer moves rows by data-dependent indices: it gathers the source row of `x` for every
  edge (a negative index wrapped by the node count first), and it sums the messages into their destination nodes from
  zero. Both programs apply these same operations to the same arguments, so nothing here is ever opened: the
  certificate only needs that equal messages are aggregated to equal sums.
-/
import proofs.«149815_j89567247991615_1_alg».proof.Proof.Gen.KernelIdeal
import Idealize.ShloMosaic.PureOps.Ideal

noncomputable section

namespace Cert.KernelIdeal.Plumb

open Idealize.ShloMosaic Cert.KernelIdeal

/-- The source rows of `x`: row `e` is row `src e` of `x`, a negative index wrapped by the node count first. -/
def srcRows (x0 : (⟨S100000x64, .f32⟩ : BufTy).Contents (Elt Ideal)) (x1 : (⟨S2x1600000, .i32⟩ : BufTy).Contents (Elt Ideal)) :
    (⟨S1600000x64, .f32⟩ : BufTy).Contents (Elt Ideal) :=
  Host.gather gather_S100000x64_S1600000x1_S1600000x64_1_0_n_n_0_1_164 x0
    (broadcastInDim S1600000x1 ![0] Facts₀.bcast_S1600000_S1600000x1_0
      (select
        (cmpi .slt (shapeCast _ (extractStridedSlice S1x1600000 ![0, 0] x1 Facts₀.slices_S2x1600000_S1x1600000_0_0) Facts₀.shapeCasts_S1x1600000_S1600000)
          (broadcastInDim S1600000 ![] Facts₀.bcast_S_S1600000 (constantI S_ 32 0#32)))
        (addi (shapeCast _ (extractStridedSlice S1x1600000 ![0, 0] x1 Facts₀.slices_S2x1600000_S1x1600000_0_0) Facts₀.shapeCasts_S1x1600000_S1600000)
          (broadcastInDim S1600000 ![] Facts₀.bcast_S_S1600000 (constantI S_ 32 100000#32)))
        (shapeCast _ (extractStridedSlice S1x1600000 ![0, 0] x1 Facts₀.slices_S2x1600000_S1x1600000_0_0) Facts₀.shapeCasts_S1x1600000_S1600000)))

/-- The destination words of the edges: the second row of the edge list, as a vector. -/
def dstWords (x1 : (⟨S2x1600000, .i32⟩ : BufTy).Contents (Elt Ideal)) : (⟨S1600000, .i32⟩ : BufTy).Contents (Elt Ideal) :=
  shapeCast _ (extractStridedSlice S1x1600000 ![1, 0] x1 Facts₀.slices_S2x1600000_S1x1600000_1_0) Facts₀.shapeCasts_S1x1600000_S1600000

/-- The messages summed per destination node, from zero. -/
def aggregate (d : (⟨S1600000, .i32⟩ : BufTy).Contents (Elt Ideal)) (msg : (⟨S1600000x64, .f32⟩ : BufTy).Contents (Elt Ideal)) :
    (⟨S100000x64, .f32⟩ : BufTy).Contents (Elt Ideal) :=
  Host.scatterAdd scatter_S100000x64_S1600000x1_S1600000x64_1_0_0_1
    (broadcastInDim S100000x64 ![] Facts₀.bcast_S_S100000x64 (constant (F := Ideal) S_ .f32 0x00000000#32))
    (broadcastInDim S1600000x1 ![0] Facts₀.bcast_S1600000_S1600000x1_0 d) msg

/-- A bias vector as a row. -/
def biasRow (b : (⟨S64, .f32⟩ : BufTy).Contents (Elt Ideal)) : (⟨S1x64, .f32⟩ : BufTy).Contents (Elt Ideal) :=
  shapeCast _ b Facts₀.shapeCasts_S64_S1x64

end Cert.KernelIdeal.Plumb

end
-- ==== Proof.KernelHost.lean ====
/-
  The host operations around the two calls, read back.

  Before the first call: the two rows of the edge list are sliced out, negative source indices are wrapped by the
  node count, the source rows of `x` are gathered, and the edge bias is reshaped to a row. Between the calls: the
  messages are scatter-added by destination into a zero array, and the two perceptron biases are reshaped to rows.
  The index plumbing keeps the names it is given once (`srcRows`, `aggregate`, `biasRow`) and is never opened.

  Each lemma below says what one buffer holds when a call is entered, in terms of the launch memory.
-/
import proofs.«149815_j89567247991615_1_alg».proof.Proof.Gen.KernelIdeal.Frame
import proofs.«149815_j89567247991615_1_alg».proof.Proof.Plumb
import Idealize.ShloMosaic.Lib.StableHlo.Run
import Idealize.ShloMosaic.PureOps.Ideal

set_option maxRecDepth 16384

noncomputable section

namespace Cert.KernelIdeal.HostSide

open Idealize.ShloMosaic Idealize.ShloMosaic.TcCoe Idealize.SL.Sem Idealize.ShloMosaic.StableHlo
open Cert.KernelIdeal Cert.KernelIdeal.Gen Cert.KernelIdeal.Plumb

variable (m : (ℓ : Loc nD τ sig) → Buf (Elt Ideal) ℓ) (ρ : Dev nD → PrngReg)

/-! ## When the edge-message call is entered -/

theorem V1_arg2 (c : Dev nD) : V1 m ρ c main_arg2 = m ((c : Thread nD τ).loc main_arg2) := by
  show StableHlo.after hostOps0 (W0 m ρ c) (Proc.devRef .tc main_arg2) = _
  after_results <;> rfl

theorem V1_arg3 (c : Dev nD) : V1 m ρ c main_arg3 = m ((c : Thread nD τ).loc main_arg3) := by
  show StableHlo.after hostOps0 (W0 m ρ c) (Proc.devRef .tc main_arg3) = _
  after_results <;> rfl

theorem V1_v10 (c : Dev nD) :
    V1 m ρ c main_v10 = srcRows (m ((c : Thread nD τ).loc main_arg0)) (m ((c : Thread nD τ).loc main_arg1)) := by
  show StableHlo.after hostOps0 (W0 m ρ c) (Proc.devRef .tc main_v10) = _
  after_results <;> rfl

theorem V1_v11 (c : Dev nD) : V1 m ρ c main_v11 = biasRow (m ((c : Thread nD τ).loc main_arg4)) := by
  show StableHlo.after hostOps0 (W0 m ρ c) (Proc.devRef .tc main_v11) = _
  after_results <;> rfl

/-! ## Between the calls: buffers the first call does not write keep what the first stretch left -/

theorem W2_arg0 (c : Dev nD) : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results <;> rfl

theorem W2_arg5 (c : Dev nD) : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results <;> rfl

theorem W2_arg6 (c : Dev nD) : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results <;> rfl

theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

theorem W2_v3 (c : Dev nD) : W2 m ρ c (Proc.devRef .tc main_v3) = dstWords (m ((c : Thread nD τ).loc main_arg1)) := by
  rw [W2_of_ne m ρ c main_v3 (by decide)]
  show StableHlo.after hostOps0 (W0 m ρ c) (Proc.devRef .tc main_v3) = _
  after_results <;> rfl

/-- The message array between the calls is what the first call's write-backs left. -/
theorem W2_v12 (c : Dev nD) : W2 m ρ c (Proc.devRef .tc main_v12) = (dat0 (V1 m ρ) c).arrAt 4 cfg0.N :=
  W2_arr m ρ c 4

/-! ## When the node-update call is entered -/

theorem V3_arg0 (c : Dev nD) : V3 m ρ c main_arg0 = m ((c : Thread nD τ).loc main_arg0) := by
  show StableHlo.after hostOps1 (W2 m ρ c) (Proc.devRef .tc main_arg0) = _
  after_results
  exact W2_arg0 m ρ c

theorem V3_arg5 (c : Dev nD) : V3 m ρ c main_arg5 = m ((c : Thread nD τ).loc main_arg5) := by
  show StableHlo.after hostOps1 (W2 m ρ c) (Proc.devRef .tc main_arg5) = _
  after_results
  exact W2_arg5 m ρ c

theorem V3_arg7 (c : Dev nD) : V3 m ρ c main_arg7 = m ((c : Thread nD τ).loc main_arg7) := by
  show StableHlo.after hostOps1 (W2 m ρ c) (Proc.devRef .tc main_arg7) = _
  after_results
  exact W2_arg7 m ρ c

theorem V3_v16 (c : Dev nD) : V3 m ρ c main_v16 = biasRow (m ((c : Thread nD τ).loc main_arg6)) := by
  show StableHlo.after hostOps1 (W2 m ρ c) (Proc.devRef .tc main_v16) = _
  after_results
  rw [W2_arg6 m ρ c]
  rfl

theorem V3_v17 (c : Dev nD) : V3 m ρ c main_v17 = biasRow (m ((c : Thread nD τ).loc main_arg8)) := by
  show StableHlo.after hostOps1 (W2 m ρ c) (Proc.devRef .tc main_v17) = _
  after_results
  rw [W2_arg8 m ρ c]
  rfl

theorem V3_v15 (c : Dev nD) :
    V3 m ρ c main_v15 = aggregate (dstWords (m ((c : Thread nD τ).loc main_arg1))) ((dat0 (V1 m ρ) c).arrAt 4 cfg0.N) := by
  show StableHlo.after hostOps1 (W2 m ρ c) (Proc.devRef .tc main_v15) = _
  after_results
  rw [W2_v3 m ρ c, W2_v12 m ρ c]
  rfl

/-- The result array after the run is what the second call's write-backs left. -/
theorem W4_v18 (c : Dev nD) : W4 m ρ c (Proc.devRef .tc main_v18) = (dat1 (V3 m ρ) c).arrAt 6 cfg1.N :=
  W4_arr m ρ c 6

end Cert.KernelIdeal.HostSide

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.KernelPay.lean ====
/-
  What each kernel body stores, read at one entry of its block, over the extended reals.

  Both bodies are a chain of entrywise operations around matrix products accumulated from zero; a change of float
  format is the identity on the extended reals, so the narrowed operands of each product are the operands
  themselves, and each product read at (r, q) is the finite sum over the contracted coordinate.
-/
import proofs.«149815_j89567247991615_1_alg».proof.Proof.Gen.KernelIdeal.Skeleton
import proofs.«149815_j89567247991615_1_alg».proof.Proof.LibRowOps
import Idealize.ShloMosaic.Lib.Pipeline.Value
import Idealize.ShloMosaic.Lib.ValueIdx
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.KernelBody

/-- The [8000,16]·[16,64] product from zero at (r, q). -/
theorem prod16 {φ₁ φ₂ : FTy} (A : FVec Ideal S8000x16 φ₁) (B : FVec Ideal S16x64 φ₂) (r : Fin 8000) (q : Fin 64) :
    matmul dot_S8000x16_S16x64_S8000x64_1_0_0_1_n_n none A B (constant (F := Ideal) S8000x64 .f32 0x00000000#32) (ix2 r q)
      = ∑ k : Fin 16, A (ix2 r k) * B (ix2 k q) :=
  matmul_plain_zero_apply Facts₀.dot_S8000x16_S16x64_S8000x64_1_0_0_1_n_n_wf none A B r q

/-- The [10000,64]·[64,64] product from zero at (r, q). -/
theorem prod64 {φ₁ φ₂ : FTy} (A : FVec Ideal S10000x64 φ₁) (B : FVec Ideal S64x64 φ₂) (r : Fin 10000) (q : Fin 64) :
    matmul dot_S10000x64_S64x64_S10000x64_1_0_0_1_n_n none A B (constant (F := Ideal) S10000x64 .f32 0x00000000#32) (ix2 r q)
      = ∑ k : Fin 64, A (ix2 r k) * B (ix2 k q) :=
  matmul_plain_zero_apply Facts₀.dot_S10000x64_S64x64_S10000x64_1_0_0_1_n_n_wf none A B r q

/-- A bias row spread down 8000 rows, at (r, q). -/
theorem row8000 (v : FVec Ideal S1x64 .f32) (r : Fin 8000) (q : Fin 64) :
    broadcastTo S8000x64 v Facts₀.broadcasts_S1x64_S8000x64 (ix2 r q) = v (ix2 (0 : Fin 1) q) :=
  broadcastTo_row_apply v Facts₀.broadcasts_S1x64_S8000x64 r q

/-- A bias row spread down 10000 rows, at (r, q). -/
theorem row10000 (v : FVec Ideal S1x64 .f32) (r : Fin 10000) (q : Fin 64) :
    broadcastTo S10000x64 v Facts₀.broadcasts_S1x64_S10000x64 (ix2 r q) = v (ix2 (0 : Fin 1) q) :=
  broadcastTo_row_apply v Facts₀.broadcasts_S1x64_S10000x64 r q

/-- The edge body's stored block at row `r`, feature `q`: the gathered feature plus the projected attributes plus
    the bias, clamped below at zero. -/
theorem edge_apply (v0 : Vec Ideal S8000x16 .f32) (v2 : Vec Ideal S16x64 .f32) (v5 : Vec Ideal S1x64 .f32)
    (v9 : Vec Ideal S8000x64 .f32) (r : Fin 8000) (q : Fin 64) :
    k0_pay1 v0 v2 v5 v9 (ix2 r q)
      = max (v9 (ix2 r q) + ((∑ k : Fin 16, v0 (ix2 r k) * v2 (ix2 k q)) + v5 (ix2 (0 : Fin 1) q))) 0 := by
  unfold k0_pay1
  simp only [maximumf_apply, addf_apply, broadcast_apply, shapeCast_self, prod16, row8000, truncf_apply,
    Ideal.ofBits_def, Ideal.ofBits_zero_f32]

/-- The node body's stored block at row `r`, feature `q`: the two-layer perceptron of the row `x + aggr`. -/
theorem node_apply (v0 v1 : Vec Ideal S10000x64 .f32) (v4 : Vec Ideal S64x64 .f32) (v8 : Vec Ideal S1x64 .f32)
    (v14 : Vec Ideal S64x64 .f32) (v18 : Vec Ideal S1x64 .f32) (r : Fin 10000) (q : Fin 64) :
    k1_pay1 v0 v1 v4 v8 v14 v18 (ix2 r q)
      = (∑ k : Fin 64, max ((∑ j : Fin 64, (v0 (ix2 r j) + v1 (ix2 r j)) * v4 (ix2 j k)) + v8 (ix2 (0 : Fin 1) k)) 0
            * v14 (ix2 k q)) + v18 (ix2 (0 : Fin 1) q) := by
  unfold k1_pay1
  simp only [maximumf_apply, addf_apply, broadcast_apply, shapeCast_self, prod64, row10000, truncf_apply,
    Ideal.ofBits_def, Ideal.ofBits_zero_f32]

end Cert.KernelIdeal.Pay

end
-- ==== Proof.Spec.lean ====
/-
  The two dense stages of one message-passing layer, as functions on the extended reals, entry by entry.

  * The message of edge `r`, feature `q`: the source node's feature plus the projected edge attributes plus the
    bias, clamped below at zero,  max(xs[r,q] + (Σₖ ea[r,k]·we[k,q] + be[0,q]), 0).
  * The update of node `r`, feature `q`: with h = x + aggr the two-layer perceptron
    Σₖ max(Σⱼ h[r,j]·w1[j,k] + b1[0,k], 0)·w2[k,q] + b2[0,q].

  The biases are rows of shape [1, 64]. Addition and multiplication here are those of the extended reals, which are
  commutative and associative; nothing below needs more than that.
-/
import Idealize.ShloMosaic.PureOps.Ideal
import Idealize.ShloMosaic.Lib.ValueIdx

noncomputable section

open scoped BigOperators

namespace Cert.Layer

open Idealize.ShloMosaic Idealize.ShloMosaic.ValueIdx

variable {E : ℕ}

/-- The message of edge `r` at feature `q`. -/
def edgeMsgAt (ea : FVec Ideal ⟨2, ![E, 16]⟩ .f32) (xs : FVec Ideal ⟨2, ![E, 64]⟩ .f32)
    (we : FVec Ideal ⟨2, ![16, 64]⟩ .f32) (be : FVec Ideal ⟨2, ![1, 64]⟩ .f32) (r : Fin E) (q : Fin 64) : EReal :=
  max (xs (ix2 r q) + ((∑ k : Fin 16, ea (ix2 r k) * we (ix2 k q)) + be (ix2 (0 : Fin 1) q))) 0

/-- All messages, as one array. -/
def edgeMsg (ea : FVec Ideal ⟨2, ![E, 16]⟩ .f32) (xs : FVec Ideal ⟨2, ![E, 64]⟩ .f32)
    (we : FVec Ideal ⟨2, ![16, 64]⟩ .f32) (be : FVec Ideal ⟨2, ![1, 64]⟩ .f32) : FVec Ideal ⟨2, ![E, 64]⟩ .f32 :=
  fun i => edgeMsgAt ea xs we be (i 0) (i 1)

theorem edgeMsg_ix2 (ea : FVec Ideal ⟨2, ![E, 16]⟩ .f32) (xs : FVec Ideal ⟨2, ![E, 64]⟩ .f32)
    (we : FVec Ideal ⟨2, ![16, 64]⟩ .f32) (be : FVec Ideal ⟨2, ![1, 64]⟩ .f32) (r : Fin E) (q : Fin 64) :
    edgeMsg ea xs we be (ix2 r q) = edgeMsgAt ea xs we be r q := rfl

/-- The hidden activation of node `r` at hidden unit `k`. -/
def hiddenAt (x aggr : FVec Ideal ⟨2, ![E, 64]⟩ .f32) (w1 : FVec Ideal ⟨2, ![64, 64]⟩ .f32)
    (b1 : FVec Ideal ⟨2, ![1, 64]⟩ .f32) (r : Fin E) (k : Fin 64) : EReal :=
  max ((∑ j : Fin 64, (x (ix2 r j) + aggr (ix2 r j)) * w1 (ix2 j k)) + b1 (ix2 (0 : Fin 1) k)) 0

/-- The update of node `r` at feature `q`. -/
def nodeMlpAt (x aggr : FVec Ideal ⟨2, ![E, 64]⟩ .f32) (w1 : FVec Ideal ⟨2, ![64, 64]⟩ .f32)
    (b1 : FVec Ideal ⟨2, ![1, 64]⟩ .f32) (w2 : FVec Ideal ⟨2, ![64, 64]⟩ .f32) (b2 : FVec Ideal ⟨2, ![1, 64]⟩ .f32)
    (r : Fin E) (q : Fin 64) : EReal :=
  (∑ k : Fin 64, hiddenAt x aggr w1 b1 r k * w2 (ix2 k q)) + b2 (ix2 (0 : Fin 1) q)

/-- All updates, as one array. -/
def nodeMlp (x aggr : FVec Ideal ⟨2, ![E, 64]⟩ .f32) (w1 : FVec Ideal ⟨2, ![64, 64]⟩ .f32)
    (b1 : FVec Ideal ⟨2, ![1, 64]⟩ .f32) (w2 : FVec Ideal ⟨2, ![64, 64]⟩ .f32) (b2 : FVec Ideal ⟨2, ![1, 64]⟩ .f32) :
    FVec Ideal ⟨2, ![E, 64]⟩ .f32 :=
  fun i => nodeMlpAt x aggr w1 b1 w2 b2 (i 0) (i 1)

theorem nodeMlp_ix2 (x aggr : FVec Ideal ⟨2, ![E, 64]⟩ .f32) (w1 : FVec Ideal ⟨2, ![64, 64]⟩ .f32)
    (b1 : FVec Ideal ⟨2, ![1, 64]⟩ .f32) (w2 : FVec Ideal ⟨2, ![64, 64]⟩ .f32) (b2 : FVec Ideal ⟨2, ![1, 64]⟩ .f32)
    (r : Fin E) (q : Fin 64) :
    nodeMlp x aggr w1 b1 w2 b2 (ix2 r q) = nodeMlpAt x aggr w1 b1 w2 b2 r q := rfl

end Cert.Layer

end
-- ==== Proof.EdgeRegion.lean ====
/-
  The edge-message call, from its blocks to its whole output array.

  The grid has 200 points; at point `t` the call reads rows 8000·t … 8000·t+7999 of the edge attributes and of the
  gathered source features, the whole projection matrix and the whole bias row, and writes back the same rows of the
  message array. The block a point writes is therefore the restriction of ONE function of the four arrays as the call
  finds them — the message of each edge — and, the 200 row blocks covering all 1,600,000 rows, the array ends
  holding that function.
-/
import proofs.«149815_j89567247991615_1_alg».proof.Proof.Gen.KernelIdeal.Frame
import proofs.«149815_j89567247991615_1_alg».proof.Proof.KernelPay
import proofs.«149815_j89567247991615_1_alg».proof.Proof.Spec

set_option maxRecDepth 16384

noncomputable section

open scoped BigOperators

namespace Cert.KernelIdeal.EdgeRegion

open Idealize.ShloMosaic Idealize.ShloMosaic.TcCoe Idealize.ShloMosaic.ValueIdx Idealize.SL.Sem
open Cert.KernelIdeal Cert.KernelIdeal.Gen Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row `t`, every
    other block index is zero. -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

theorem t_lt (t : Fin cfg0.N) : t.val < 200 := lt_of_lt_of_eq t.isLt N_0

/-- Row `p` of point `t`'s block is edge 8000·t + p. -/
abbrev erow (t : Fin cfg0.N) (p : Fin 8000) : Fin 1600000 :=
  ⟨t.val * 8000 + p.val, by have := t_lt t; have := p.isLt; omega⟩

/-! ## Each window's block at a point, read off the array the call finds -/

theorem blk_0 (c : Dev nD) (t : Fin cfg0.N) (p : Fin 8000) (k : Fin 16) :
    iblk0 V c 0 t (ix2 p k) = V c main_arg2 (ix2 (erow t p) k) := by
  obtain ⟨e00, e01, -⟩ := idx t
  show V c main_arg2 (((cfg0.win 0).blk t).view.emb (ix2 p k)) = _
  have h : ((cfg0.win 0).blk t).view.emb (ix2 p k) = ix2 (erow t p) k := by
    funext a; apply Fin.ext
    match a with
    | ⟨0, _⟩ => show win0_0.index t (0 : Fin 2) * 8000 + 1 * p.val = t.val * 8000 + p.val; omega
    | ⟨1, _⟩ => show win0_0.index t (1 : Fin 2) * 16 + 1 * k.val = k.val; omega
  rw [h]

theorem blk_1 (c : Dev nD) (t : Fin cfg0.N) (p : Fin 8000) (q : Fin 64) :
    iblk0 V c 1 t (ix2 p q) = V c main_v10 (ix2 (erow t p) q) := by
  obtain ⟨-, -, e10, e11, -⟩ := idx t
  show V c main_v10 (((cfg0.win 1).blk t).view.emb (ix2 p q)) = _
  have h : ((cfg0.win 1).blk t).view.emb (ix2 p q) = ix2 (erow t p) q := by
    funext a; apply Fin.ext
    match a with
    | ⟨0, _⟩ => show win0_1.index t (0 : Fin 2) * 8000 + 1 * p.val = t.val * 8000 + p.val; omega
    | ⟨1, _⟩ => show win0_1.index t (1 : Fin 2) * 64 + 1 * q.val = q.val; omega
  rw [h]

theorem blk_2 (c : Dev nD) (t : Fin cfg0.N) (k : Fin 16) (q : Fin 64) :
    iblk0 V c 2 t (ix2 k q) = V c main_arg3 (ix2 k q) := by
  obtain ⟨-, -, -, -, e20, e21, -⟩ := idx t
  show V c main_arg3 (((cfg0.win 2).blk t).view.emb (ix2 k q)) = _
  have h : ((cfg0.win 2).blk t).view.emb (ix2 k q) = ix2 k q := by
    funext a; apply Fin.ext
    match a with
    | ⟨0, _⟩ => show win0_2.index t (0 : Fin 2) * 16 + 1 * k.val = k.val; omega
    | ⟨1, _⟩ => show win0_2.index t (1 : Fin 2) * 64 + 1 * q.val = q.val; omega
  rw [h]

theorem blk_3 (c : Dev nD) (t : Fin cfg0.N) (q : Fin 64) :
    iblk0 V c 3 t (ix2 (0 : Fin 1) q) = V c main_v11 (ix2 (0 : Fin 1) q) := by
  obtain ⟨-, -, -, -, -, -, e30, e31, -⟩ := idx t
  show V c main_v11 (((cfg0.win 3).blk t).view.emb (ix2 (0 : Fin 1) q)) = _
  have h : ((cfg0.win 3).blk t).view.emb (ix2 (0 : Fin 1) q) = ix2 (0 : Fin 1) q := by
    funext a; apply Fin.ext
    match a with
    | ⟨0, _⟩ => show win0_3.index t (0 : Fin 2) * 1 + 1 * 0 = 0; omega
    | ⟨1, _⟩ => show win0_3.index t (1 : Fin 2) * 64 + 1 * q.val = q.val; omega
  rw [h]

/-- Entry (p, q) of the output block at point `t` is entry (8000·t + p, q) of the output array. -/
theorem emb_4 (t : Fin cfg0.N) (p : Fin 8000) (q : Fin 64) :
    ((cfg0.win 4).blk t).view.emb (ix2 p q) = ix2 (erow t p) q := by
  obtain ⟨-, -, -, -, -, -, -, -, e40, e41⟩ := idx t
  funext a; apply Fin.ext
  match a with
  | ⟨0, _⟩ => show win0_4.index t (0 : Fin 2) * 8000 + 1 * p.val = t.val * 8000 + p.val; omega
  | ⟨1, _⟩ => show win0_4.index t (1 : Fin 2) * 64 + 1 * q.val = q.val; omega

/-! ## What a point writes back, the cover, and the array -/

/-- What point `t` writes back is block `t` of the messages computed from the arrays as the call finds them. -/
theorem flushed (c : Dev nD) (t : Fin cfg0.N) :
    (dat0 V c).flushed 4 t = ((cfg0.win 4).blk t).view.read (Elt Ideal)
      (edgeMsg (E := 1600000) (V c main_arg2) (V c main_v10) (V c main_arg3) (V c main_v11)) := by
  show (cfg0.win 4).cut (grid0.coords t) ((dat0 V c).after 4 t) = _
  rw [after0_4]
  unfold out0_4
  rw [View.canon_unit_zero hz]
  simp only [View.ld_unit_zero (S := S8000x16) hz, View.ld_unit_zero (S := S16x64) hz,
    View.ld_unit_zero (S := S1x64) hz, View.ld_unit_zero (S := S8000x64) hz]
  funext j
  obtain ⟨p, q, rfl⟩ : ∃ (p : Fin 8000) (q : Fin 64), j = ix2 p q := ⟨j 0, j 1, eq_ix2 j⟩
  show k0_pay1 (iblk0 V c 0 t) (iblk0 V c 2 t) (iblk0 V c 3 t) (iblk0 V c 1 t) (ix2 p q)
    = edgeMsg (E := 1600000) (V c main_arg2) (V c main_v10) (V c main_arg3) (V c main_v11)
        (((cfg0.win 4).blk t).view.emb (ix2 p q))
  rw [emb_4 t p q, edgeMsg_ix2]
  refine (Pay.edge_apply (iblk0 V c 0 t) (iblk0 V c 2 t) (iblk0 V c 3 t) (iblk0 V c 1 t) p q).trans ?_
  unfold edgeMsgAt
  simp only [blk_0 V c t, blk_1 V c t, blk_2 V c t, blk_3 V c t]

/-- Membership in a point's output block, coordinate by coordinate. -/
theorem mem_blk (t : Fin cfg0.N) (i : S1600000x64.Idx) :
    i ∈ ((cfg0.win 4).blk t).view.set ↔ ∀ a : Fin 2, win0_4.index t a * S8000x64.size a ≤ (i a).val
      ∧ (i a).val < win0_4.index t a * S8000x64.size a + S8000x64.size a := by
  show i ∈ ((View.whole main_v12).slice (win0_4.rect t)).set ↔ _
  rw [View.set_slice_whole, Rect.mem_set_unit]
  exact Iff.rfl

/-- Edge `r` lies in the block of point r / 8000. -/
theorem cover (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : (i 0).val / 8000 < cfg0.N := by rw [show cfg0.N = 200 from N_0]; omega
  obtain ⟨-, -, -, -, -, -, -, -, e40, e41⟩ := idx ⟨(i 0).val / 8000, hN⟩
  refine ⟨⟨(i 0).val / 8000, hN⟩, flush0_4 _, ?_⟩
  rw [mem_blk]
  intro a
  match a with
  | ⟨0, _⟩ =>
    show win0_4.index ⟨(i 0).val / 8000, hN⟩ (0 : Fin 2) * 8000 ≤ (i 0).val
      ∧ (i 0).val < win0_4.index ⟨(i 0).val / 8000, hN⟩ (0 : Fin 2) * 8000 + 8000
    have e : win0_4.index ⟨(i 0).val / 8000, hN⟩ (0 : Fin 2) = (i 0).val / 8000 := e40
    omega
  | ⟨1, _⟩ =>
    show win0_4.index ⟨(i 0).val / 8000, hN⟩ (1 : Fin 2) * 64 ≤ (i 1).val
      ∧ (i 1).val < win0_4.index ⟨(i 0).val / 8000, hN⟩ (1 : Fin 2) * 64 + 64
    omega

/-- The message array after the call: the message of every edge, from the arrays as the call finds them. -/
theorem final (c : Dev nD) :
    (dat0 V c).arrAt 4 cfg0.N
      = edgeMsg (E := 1600000) (V c main_arg2) (V c main_v10) (V c main_arg3) (V c main_v11) :=
  (dat0 V c).arrAt_eq_of_cover 4 _ (fun t _ => flushed V c t) cover

end Cert.KernelIdeal.EdgeRegion

end
-- ==== Proof.NodeRegion.lean ====
/-
  The node-update call, from its blocks to its whole output array.

  The grid has 10 points; at point `t` the call reads rows 10000·t … 10000·t+9999 of the node features and of the
  aggregated messages, the two weight matrices and the two bias rows whole, and writes back the same rows of the
  result. The block a point writes is the restriction of ONE function of the six arrays as the call finds them — the
  two-layer perceptron of each node's row `x + aggr` — and, the 10 row blocks covering all 100,000 rows, the result
  array ends holding that function.
-/
import proofs.«149815_j89567247991615_1_alg».proof.Proof.Gen.KernelIdeal.Frame
import proofs.«149815_j89567247991615_1_alg».proof.Proof.KernelPay
import proofs.«149815_j89567247991615_1_alg».proof.Proof.Spec

set_option maxRecDepth 16384

noncomputable section

open scoped BigOperators

namespace Cert.KernelIdeal.NodeRegion

open Idealize.ShloMosaic Idealize.ShloMosaic.TcCoe Idealize.ShloMosaic.ValueIdx Idealize.SL.Sem
open Cert.KernelIdeal Cert.KernelIdeal.Gen Cert.Layer
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row-blocked inputs and the output sit at block row `t`, every
    other block index is zero. -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

theorem t_lt (t : Fin cfg1.N) : t.val < 10 := lt_of_lt_of_eq t.isLt N_1

/-- Row `p` of point `t`'s block is node 10000·t + p. -/
abbrev nrow (t : Fin cfg1.N) (p : Fin 10000) : Fin 100000 :=
  ⟨t.val * 10000 + p.val, by have := t_lt t; have := p.isLt; omega⟩

/-! ## Each window's block at a point, read off the array the call finds -/

theorem blk_0 (c : Dev nD) (t : Fin cfg1.N) (p : Fin 10000) (j : Fin 64) :
    iblk1 V c 0 t (ix2 p j) = V c main_arg0 (ix2 (nrow t p) j) := by
  obtain ⟨e00, e01, -⟩ := idx t
  show V c main_arg0 (((cfg1.win 0).blk t).view.emb (ix2 p j)) = _
  have h : ((cfg1.win 0).blk t).view.emb (ix2 p j) = ix2 (nrow t p) j := by
    funext a; apply Fin.ext
    match a with
    | ⟨0, _⟩ => show win1_0.index t (0 : Fin 2) * 10000 + 1 * p.val = t.val * 10000 + p.val; omega
    | ⟨1, _⟩ => show win1_0.index t (1 : Fin 2) * 64 + 1 * j.val = j.val; omega
  rw [h]

theorem blk_1 (c : Dev nD) (t : Fin cfg1.N) (p : Fin 10000) (j : Fin 64) :
    iblk1 V c 1 t (ix2 p j) = V c main_v15 (ix2 (nrow t p) j) := by
  obtain ⟨-, -, e10, e11, -⟩ := idx t
  show V c main_v15 (((cfg1.win 1).blk t).view.emb (ix2 p j)) = _
  have h : ((cfg1.win 1).blk t).view.emb (ix2 p j) = ix2 (nrow t p) j := by
    funext a; apply Fin.ext
    match a with
    | ⟨0, _⟩ => show win1_1.index t (0 : Fin 2) * 10000 + 1 * p.val = t.val * 10000 + p.val; omega
    | ⟨1, _⟩ => show win1_1.index t (1 : Fin 2) * 64 + 1 * j.val = j.val; omega
  rw [h]

theorem blk_2 (c : Dev nD) (t : Fin cfg1.N) (j k : Fin 64) :
    iblk1 V c 2 t (ix2 j k) = V c main_arg5 (ix2 j k) := by
  obtain ⟨-, -, -, -, e20, e21, -⟩ := idx t
  show V c main_arg5 (((cfg1.win 2).blk t).view.emb (ix2 j k)) = _
  have h : ((cfg1.win 2).blk t).view.emb (ix2 j k) = ix2 j k := by
    funext a; apply Fin.ext
    match a with
    | ⟨0, _⟩ => show win1_2.index t (0 : Fin 2) * 64 + 1 * j.val = j.val; omega
    | ⟨1, _⟩ => show win1_2.index t (1 : Fin 2) * 64 + 1 * k.val = k.val; omega
  rw [h]

theorem blk_3 (c : Dev nD) (t : Fin cfg1.N) (k : Fin 64) :
    iblk1 V c 3 t (ix2 (0 : Fin 1) k) = V c main_v16 (ix2 (0 : Fin 1) k) := by
  obtain ⟨-, -, -, -, -, -, e30, e31, -⟩ := idx t
  show V c main_v16 (((cfg1.win 3).blk t).view.emb (ix2 (0 : Fin 1) k)) = _
  have h : ((cfg1.win 3).blk t).view.emb (ix2 (0 : Fin 1) k) = ix2 (0 : Fin 1) k := by
    funext a; apply Fin.ext
    match a with
    | ⟨0, _⟩ => show win1_3.index t (0 : Fin 2) * 1 + 1 * 0 = 0; omega
    | ⟨1, _⟩ => show win1_3.index t (1 : Fin 2) * 64 + 1 * k.val = k.val; omega
  rw [h]

theorem blk_4 (c : Dev nD) (t : Fin cfg1.N) (k q : Fin 64) :
    iblk1 V c 4 t (ix2 k q) = V c main_arg7 (ix2 k q) := by
  obtain ⟨-, -, -, -, -, -, -, -, e40, e41, -⟩ := idx t
  show V c main_arg7 (((cfg1.win 4).blk t).view.emb (ix2 k q)) = _
  have h : ((cfg1.win 4).blk t).view.emb (ix2 k q) = ix2 k q := by
    funext a; apply Fin.ext
    match a with
    | ⟨0, _⟩ => show win1_4.index t (0 : Fin 2) * 64 + 1 * k.val = k.val; omega
    | ⟨1, _⟩ => show win1_4.index t (1 : Fin 2) * 64 + 1 * q.val = q.val; omega
  rw [h]

theorem blk_5 (c : Dev nD) (t : Fin cfg1.N) (q : Fin 64) :
    iblk1 V c 5 t (ix2 (0 : Fin 1) q) = V c main_v17 (ix2 (0 : Fin 1) q) := by
  obtain ⟨-, -, -, -, -, -, -, -, -, -, e50, e51, -⟩ := idx t
  show V c main_v17 (((cfg1.win 5).blk t).view.emb (ix2 (0 : Fin 1) q)) = _
  have h : ((cfg1.win 5).blk t).view.emb (ix2 (0 : Fin 1) q) = ix2 (0 : Fin 1) q := by
    funext a; apply Fin.ext
    match a with
    | ⟨0, _⟩ => show win1_5.index t (0 : Fin 2) * 1 + 1 * 0 = 0; omega
    | ⟨1, _⟩ => show win1_5.index t (1 : Fin 2) * 64 + 1 * q.val = q.val; omega
  rw [h]

/-- Entry (p, q) of the output block at point `t` is entry (10000·t + p, q) of the result array. -/
theorem emb_6 (t : Fin cfg1.N) (p : Fin 10000) (q : Fin 64) :
    ((cfg1.win 6).blk t).view.emb (ix2 p q) = ix2 (nrow t p) q := by
  obtain ⟨-, -, -, -, -, -, -, -, -, -, -, -, e60, e61⟩ := idx t
  funext a; apply Fin.ext
  match a with
  | ⟨0, _⟩ => show win1_6.index t (0 : Fin 2) * 10000 + 1 * p.val = t.val * 10000 + p.val; omega
  | ⟨1, _⟩ => show win1_6.index t (1 : Fin 2) * 64 + 1 * q.val = q.val; omega

/-! ## What a point writes back, the cover, and the array -/

/-- What point `t` writes back is block `t` of the updates computed from the arrays as the call finds them. -/
theorem flushed (c : Dev nD) (t : Fin cfg1.N) :
    (dat1 V c).flushed 6 t = ((cfg1.win 6).blk t).view.read (Elt Ideal)
      (nodeMlp (E := 100000) (V c main_arg0) (V c main_v15) (V c main_arg5) (V c main_v16) (V c main_arg7) (V c main_v17)) := by
  show (cfg1.win 6).cut (grid1.coords t) ((dat1 V c).after 6 t) = _
  rw [after1_6]
  unfold out1_6
  rw [View.canon_unit_zero hz]
  simp only [View.ld_unit_zero (S := S10000x64) hz, View.ld_unit_zero (S := S64x64) hz, View.ld_unit_zero (S := S1x64) hz]
  funext j
  obtain ⟨p, q, rfl⟩ : ∃ (p : Fin 10000) (q : Fin 64), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = nodeMlp (E := 100000) (V c main_arg0) (V c main_v15) (V c main_arg5) (V c main_v16) (V c main_arg7) (V c main_v17)
        (((cfg1.win 6).blk t).view.emb (ix2 p q))
  rw [emb_6 t p q, nodeMlp_ix2]
  refine (Pay.node_apply (iblk1 V c 0 t) (iblk1 V c 1 t) (iblk1 V c 2 t) (iblk1 V c 3 t) (iblk1 V c 4 t) (iblk1 V c 5 t) p q).trans ?_
  unfold nodeMlpAt hiddenAt
  simp only [blk_0 V c t, blk_1 V c t, blk_2 V c t, blk_3 V c t, blk_4 V c t, blk_5 V c t]

/-- Membership in a point's output block, coordinate by coordinate. -/
theorem mem_blk (t : Fin cfg1.N) (i : S100000x64.Idx) :
    i ∈ ((cfg1.win 6).blk t).view.set ↔ ∀ a : Fin 2, win1_6.index t a * S10000x64.size a ≤ (i a).val
      ∧ (i a).val < win1_6.index t a * S10000x64.size a + S10000x64.size a := by
  show i ∈ ((View.whole main_v18).slice (win1_6.rect t)).set ↔ _
  rw [View.set_slice_whole, Rect.mem_set_unit]
  exact Iff.rfl

/-- Node `r` lies in the block of point r / 10000. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : (i 0).val / 10000 < cfg1.N := by rw [show cfg1.N = 10 from N_1]; omega
  obtain ⟨-, -, -, -, -, -, -, -, -, -, -, -, e60, e61⟩ := idx ⟨(i 0).val / 10000, hN⟩
  refine ⟨⟨(i 0).val / 10000, hN⟩, flush1_6 _, ?_⟩
  rw [mem_blk]
  intro a
  match a with
  | ⟨0, _⟩ =>
    show win1_6.index ⟨(i 0).val / 10000, hN⟩ (0 : Fin 2) * 10000 ≤ (i 0).val
      ∧ (i 0).val < win1_6.index ⟨(i 0).val / 10000, hN⟩ (0 : Fin 2) * 10000 + 10000
    have e : win1_6.index ⟨(i 0).val / 10000, hN⟩ (0 : Fin 2) = (i 0).val / 10000 := e60
    omega
  | ⟨1, _⟩ =>
    show win1_6.index ⟨(i 0).val / 10000, hN⟩ (1 : Fin 2) * 64 ≤ (i 1).val
      ∧ (i 1).val < win1_6.index ⟨(i 0).val / 10000, hN⟩ (1 : Fin 2) * 64 + 64
    omega

/-- The result array after the call: the update of every node, from the arrays as the call finds them. -/
theorem final (c : Dev nD) :
    (dat1 V c).arrAt 6 cfg1.N
      = nodeMlp (E := 100000) (V c main_arg0) (V c main_v15) (V c main_arg5) (V c main_v16) (V c main_arg7) (V c main_v17) :=
  (dat1 V c).arrAt_eq_of_cover 6 _ (fun t _ => flushed V c t) cover

end Cert.KernelIdeal.NodeRegion

end
-- ==== Proof.LayerFn.lean ====
/-
  The whole layer as ONE function of the nine arguments: gather the source rows, form the edge messages, sum them
  into their destination nodes, and update every node by the two-layer perceptron of `x + aggr`. Both programs'
  results are shown equal to this term.
-/
import proofs.«149815_j89567247991615_1_alg».proof.Proof.Plumb
import proofs.«149815_j89567247991615_1_alg».proof.Proof.Spec

noncomputable section

namespace Cert.KernelIdeal.Plumb

open Idealize.ShloMosaic Cert.KernelIdeal Cert.Layer

/-- The layer's result from its arguments, in the order of the entry point's parameters: node features, edge list,
    edge attributes, edge projection and bias, and the perceptron's two weight matrices and biases. -/
def layer (x0 : (⟨S100000x64, .f32⟩ : BufTy).Contents (Elt Ideal)) (x1 : (⟨S2x1600000, .i32⟩ : BufTy).Contents (Elt Ideal))
    (x2 : (⟨S1600000x16, .f32⟩ : BufTy).Contents (Elt Ideal)) (x3 : (⟨S16x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) (x7 : (⟨S64x64, .f32⟩ : BufTy).Contents (Elt Ideal))
    (x8 : (⟨S64, .f32⟩ : BufTy).Contents (Elt Ideal)) : (⟨S100000x64, .f32⟩ : BufTy).Contents (Elt Ideal) :=
  nodeMlp (E := 100000) x0
    (aggregate (dstWords x1) (edgeMsg (E := 1600000) x2 (srcRows x0 x1) x3 (biasRow x4)))
    x5 (biasRow x6) x7 (biasRow x8)

end Cert.KernelIdeal.Plumb

end
-- ==== Proof.KernelValue.lean ====
/-
  The idealized kernel's result as one function of its arguments.

  The run ends with the result array at what the node-update call's write-backs left; that call's array is the
  perceptron of the arrays it finds; among those, the aggregated messages are the scatter-add of what the
  edge-message call's write-backs left, which are the messages of the arrays THAT call finds; and every remaining
  array is an argument as launched, or a bias reshaped to a row. Substituting one into the other gives the layer.
-/
import proofs.«149815_j89567247991615_1_alg».proof.Proof.KernelRun
import proofs.«149815_j89567247991615_1_alg».proof.Proof.KernelHost
import proofs.«149815_j89567247991615_1_alg».proof.Proof.EdgeRegion
import proofs.«149815_j89567247991615_1_alg».proof.Proof.NodeRegion
import proofs.«149815_j89567247991615_1_alg».proof.Proof.LayerFn

set_option maxRecDepth 16384

noncomputable section

namespace Cert.KernelIdeal.KValue

open Idealize.ShloMosaic Idealize.ShloMosaic.TcCoe Idealize.SL.Sem
open Cert.KernelIdeal Cert.KernelIdeal.Gen Cert.KernelIdeal.Plumb Cert.KernelIdeal.HostSide

variable (m : (ℓ : Loc nD τ sig) → Buf (Elt Ideal) ℓ) (ρ : Dev nD → PrngReg)

/-- The contents of the result array at the last boundary are the layer of the launch contents of the arguments. -/
theorem result_eq (c : Dev nD) :
    W4 m ρ c (Proc.devRef .tc main_v18)
      = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  rw [W4_v18 m ρ c, NodeRegion.final (V3 m ρ) c, V3_arg0 m ρ c, V3_v15 m ρ c, V3_arg5 m ρ c, V3_v16 m ρ c, V3_arg7 m ρ c,
    V3_v17 m ρ c, EdgeRegion.final (V1 m ρ) c, V1_arg2 m ρ c, V1_v10 m ρ c, V1_arg3 m ρ c, V1_v11 m ρ c]
  rfl

/-- Every weakly fair execution of the idealized kernel terminates with the result at the layer of the arguments
    and the arguments unchanged. -/
theorem run : θ_run defs (onTc (τ := τ) (main (F := Ideal))) ⟨m, fun _ => 0, ρ⟩ (fun r => ∀ c : Dev nD,
      r.2.mem ((c.tc : Thread nD τ).loc main_v18)
        = layer (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Run.run_named m ρ)

end Cert.KernelIdeal.KValue

end
-- ==== Proof.LibHostRows.lean ====
import Idealize.ShloMosaic.Lib.Pipeline.Value
import Idealize.ShloMosaic.Lib.ValueIdx
import Idealize.ShloMosaic.Lib.IdealHost
import Idealize.ShloMosaic.PureOps.Ideal.Laws

/-!
# A vector broadcast down the rows, and a column sum, read at an index

`jnp` broadcasts a vector of `C` entries against an `R × C` matrix in two steps, `[C] → [1, C] → [R, C]`;
read at `(r, c)` the result is the vector's entry `c` (`rowBroadcast_apply`).  A host sum of an `R × C`
matrix over its rows, read at `c` over the extended reals, is the initial value plus the sum over `r` of
the entries `(r, c)` (`colSum_apply`).  The extents are arbitrary naturals.
-/

noncomputable section

open scoped BigOperators

namespace Cert.LibHostRows

open Idealize.ShloMosaic Idealize.ShloMosaic.ValueIdx

/-- A vector broadcast down the rows of a matrix, read at an index: the vector at the column. -/
theorem rowBroadcast_apply {α : Type} {R C : ℕ}
    (h1 : (⟨1, ![C]⟩ : Shape).BroadcastsInDim ⟨2, ![1, C]⟩ ![1])
    (h2 : (⟨2, ![1, C]⟩ : Shape).BroadcastsInDim ⟨2, ![R, C]⟩ ![0, 1])
    (y : (⟨1, ![C]⟩ : Shape).Idx → α) (i : (⟨2, ![R, C]⟩ : Shape).Idx) :
    broadcastInDim ⟨2, ![R, C]⟩ ![0, 1] h2 (broadcastInDim ⟨2, ![1, C]⟩ ![1] h1 y) i = y (ix1 (i 1)) := by
  have hc : (i 1).val < C := (i 1).isLt
  rw [broadcastInDim_apply _ h2 _ i (ix2 ⟨0, Nat.one_pos⟩ (i 1)) (fun a => match a with
      | ⟨0, _⟩ => by show (0 : ℕ) = if (1 : ℕ) = 1 then 0 else (i 0).val; rw [if_pos rfl]
      | ⟨1, _⟩ => by
        show (i 1).val = if C = 1 then 0 else (i 1).val
        split
        · omega
        · rfl),
    broadcastInDim_apply _ h1 y _ (ix1 (i 1)) (fun a => match a with
      | ⟨0, _⟩ => by
        show (i 1).val = if C = 1 then 0 else (i 1).val
        split
        · omega
        · rfl)]

/-- The host's sum of a matrix over its rows, read at a column over the extended reals. -/
theorem colSum_apply {R C : ℕ} {φ : FTy} {u : Shape}
    (hr : (⟨2, ![R, C]⟩ : Shape).ReducesTo [0] ⟨1, ![C]⟩) (hR : (⟨2, ![R, C]⟩ : Shape).Reduces [0] ⟨1, ![C]⟩)
    (hu : 0 < u.numel) (X : FVec Ideal ⟨2, ![R, C]⟩ φ) (c : u.Idx → Ideal φ) (j : (⟨1, ![C]⟩ : Shape).Idx) :
    Host.reduceAdd X c hr hu j = c (Shape.Idx.first hu) + ∑ r : Fin R, X (ix2 r (j 0)) := by
  rw [hostReduceAdd_apply, Ideal.hostReduceAdd_single hr hR]
  refine congrArg (_ + ·) (Finset.sum_congr rfl fun k _ => ?_)
  exact congrArg X (funext fun a => Fin.ext (by match a with | ⟨0, _⟩ => rfl | ⟨1, _⟩ => rfl))

end Cert.LibHostRows

end
-- ==== Proof.RefValue.lean ====
/-
  The reference's result is the layer.

  The reference computes the edge projection as one [1600000,16]·[16,64] product and the perceptron's layers as
  [100000,64]·[64,64] products, adds each bias after broadcasting it [64] → [1,64] → [rows,64], clamps with a maximum
  against a broadcast zero, and scales `x` by the constant one before adding the aggregated messages. Read at an index:
  each product is the finite sum over the contracted coordinate, each broadcast bias is the bias at the column (the
  same entry the reshaped row holds at (0, column)), the pattern of 1.0 is the extended real one and 1·x = x, the
  pattern of 0.0 is zero. Its gather and its scatter-add are the kernel's, applied to the same operands.
-/
import proofs.«149815_j89567247991615_1_alg».proof.Proof.Gen.ReferenceIdeal.Read
import proofs.«149815_j89567247991615_1_alg».proof.Proof.LayerFn
import proofs.«149815_j89567247991615_1_alg».proof.Proof.LibHostRows
import proofs.«149815_j89567247991615_1_alg».proof.Proof.LibRowOps
import Idealize.ShloMosaic.Lib.IdealHost
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.ValueIdx
open Cert.ReferenceIdeal Cert.ReferenceIdeal.Read Cert.Layer Cert.KernelIdeal.Plumb

variable (x0 : (⟨S100000x64, .f32⟩ : BufTy).Contents (Elt Ideal)) (x1 : (⟨S2x1600000, .i32⟩ : BufTy).Contents (Elt Ideal))
  (x2 : (⟨S1600000x16, .f32⟩ : BufTy).Contents (Elt Ideal)) (x3 : (⟨S16x64, .f32⟩ : BufTy).Contents (Elt Ideal))
  (x4 : (⟨S64, .f32⟩ : BufTy).Contents (Elt Ideal)) (x5 : (⟨S64x64, .f32⟩ : BufTy).Contents (Elt Ideal))
  (x6 : (⟨S64, .f32⟩ : BufTy).Contents (Elt Ideal)) (x7 : (⟨S64x64, .f32⟩ : BufTy).Contents (Elt Ideal))
  (x8 : (⟨S64, .f32⟩ : BufTy).Contents (Elt Ideal))

/-- The reference gathers the same source rows. -/
theorem src_eq : val_main_v14 (F := Ideal) x0 x1 = srcRows x0 x1 := rfl

/-- The reference sums its messages into the destination nodes by the same scatter-add. -/
theorem aggr_eq : val_main_v19 (F := Ideal) x0 x1 x2 x3 x4
    = aggregate (dstWords x1) (val_main_v16 (F := Ideal) x0 x1 x2 x3 x4) := rfl

/-! ## The generated read lemmas' index functions, in coordinates -/

theorem lidx4 (r : Fin 1600000) (q : Fin 64) (k : Fin 16) : lidx_main_v4 (ix2 r q) k = ix2 r k :=
  funext fun a => Fin.ext (by match a with | ⟨0, _⟩ => rfl | ⟨1, _⟩ => rfl)
theorem ridx4 (r : Fin 1600000) (q : Fin 64) (k : Fin 16) : ridx_main_v4 (ix2 r q) k = ix2 k q :=
  funext fun a => Fin.ext (by match a with | ⟨0, _⟩ => rfl | ⟨1, _⟩ => rfl)
theorem lidx23 (r : Fin 100000) (k j : Fin 64) : lidx_main_v23 (ix2 r k) j = ix2 r j :=
  funext fun a => Fin.ext (by match a with | ⟨0, _⟩ => rfl | ⟨1, _⟩ => rfl)
theorem ridx23 (r : Fin 100000) (k j : Fin 64) : ridx_main_v23 (ix2 r k) j = ix2 j k :=
  funext fun a => Fin.ext (by match a with | ⟨0, _⟩ => rfl | ⟨1, _⟩ => rfl)
theorem lidx28 (r : Fin 100000) (q k : Fin 64) : lidx_main_v28 (ix2 r q) k = ix2 r k :=
  funext fun a => Fin.ext (by match a with | ⟨0, _⟩ => rfl | ⟨1, _⟩ => rfl)
theorem ridx28 (r : Fin 100000) (q k : Fin 64) : ridx_main_v28 (ix2 r q) k = ix2 k q :=
  funext fun a => Fin.ext (by match a with | ⟨0, _⟩ => rfl | ⟨1, _⟩ => rfl)

/-! ## The biases, the zero and the one -/

/-- The edge bias broadcast down the edges, at (r, q), is entry (0, q) of the bias as a row. -/
theorem bias6 (r : Fin 1600000) (q : Fin 64) :
    val_main_v6 (F := Ideal) x4 (ix2 r q) = biasRow x4 (ix2 (0 : Fin 1) q) :=
  (Cert.LibHostRows.rowBroadcast_apply Facts₀.bcast_S64_S1x64_1 Facts₀.bcast_S1x64_S1600000x64_0_1 x4 (ix2 r q)).trans
    (Cert.KernelBody.shapeCast_row_apply x4 Cert.KernelIdeal.Facts₀.shapeCasts_S64_S1x64 q).symm

/-- The first perceptron bias broadcast down the nodes, at (r, k). -/
theorem bias25 (r : Fin 100000) (k : Fin 64) :
    val_main_v25 (F := Ideal) x6 (ix2 r k) = biasRow x6 (ix2 (0 : Fin 1) k) :=
  (Cert.LibHostRows.rowBroadcast_apply Facts₀.bcast_S64_S1x64_1 Facts₀.bcast_S1x64_S100000x64_0_1 x6 (ix2 r k)).trans
    (Cert.KernelBody.shapeCast_row_apply x6 Cert.KernelIdeal.Facts₀.shapeCasts_S64_S1x64 k).symm

/-- The second perceptron bias broadcast down the nodes, at (r, q). -/
theorem bias30 (r : Fin 100000) (q : Fin 64) :
    val_main_v30 (F := Ideal) x8 (ix2 r q) = biasRow x8 (ix2 (0 : Fin 1) q) :=
  (Cert.LibHostRows.rowBroadcast_apply Facts₀.bcast_S64_S1x64_1 Facts₀.bcast_S1x64_S100000x64_0_1 x8 (ix2 r q)).trans
    (Cert.KernelBody.shapeCast_row_apply x8 Cert.KernelIdeal.Facts₀.shapeCasts_S64_S1x64 q).symm

theorem zero0 (i : S1600000x64.Idx) : val_main_call0_v0 (F := Ideal) i = 0 := by
  rw [val_main_call0_v0_apply, val_main_call0_cst_apply, Ideal.ofBits_def, Ideal.ofBits_zero_f32]

theorem zero1 (i : S100000x64.Idx) : val_main_call1_v0 (F := Ideal) i = 0 := by
  rw [val_main_call1_v0_apply, val_main_call1_cst_apply, Ideal.ofBits_def, Ideal.ofBits_zero_f32]

theorem one20 (i : S100000x64.Idx) : val_main_v20 (F := Ideal) i = 1 := by
  rw [val_main_v20_apply, val_main_cst_1_apply, Ideal.ofBits_def, Ideal.ofBits_one_f32]

/-! ## The stages -/

/-- The reference's messages are the messages. -/
theorem msg_eq : val_main_v16 (F := Ideal) x0 x1 x2 x3 x4
    = edgeMsg (E := 1600000) x2 (srcRows x0 x1) x3 (biasRow x4) := by
  funext i
  obtain ⟨r, q, rfl⟩ : ∃ (r : Fin 1600000) (q : Fin 64), i = ix2 r q := ⟨i 0, i 1, eq_ix2 i⟩
  rw [edgeMsg_ix2, val_main_v16_apply, val_main_v15_apply, val_main_v7_apply, val_main_v4_apply, zero0, bias6, src_eq]
  unfold edgeMsgAt
  simp only [lidx4, ridx4, Ideal.maximumf_def, Ideal.addf_def]

/-- The reference's perceptron input `1·x + aggr` at (r, j) is `x + aggr` of the aggregated messages. -/
theorem h_eq (r : Fin 100000) (j : Fin 64) :
    val_main_v22 (F := Ideal) x0 x1 x2 x3 x4 (ix2 r j)
      = x0 (ix2 r j)
        + aggregate (dstWords x1) (edgeMsg (E := 1600000) x2 (srcRows x0 x1) x3 (biasRow x4)) (ix2 r j) := by
  rw [val_main_v22_apply, val_main_v21_apply, one20, aggr_eq, msg_eq, Ideal.addf_def, Ideal.mulf_def, one_mul]

/-- The reference's hidden activation at (r, k). -/
theorem hidden_eq (r : Fin 100000) (k : Fin 64) :
    val_main_v27 (F := Ideal) x0 x1 x2 x3 x4 x5 x6 (ix2 r k)
      = hiddenAt (E := 100000) x0
          (aggregate (dstWords x1) (edgeMsg (E := 1600000) x2 (srcRows x0 x1) x3 (biasRow x4))) x5 (biasRow x6) r k := by
  rw [val_main_v27_apply, val_main_v26_apply, val_main_v23_apply, zero1, bias25]
  unfold hiddenAt
  simp only [lidx23, ridx23, h_eq, Ideal.maximumf_def, Ideal.addf_def]

/-- The reference's result is the layer of its arguments. -/
theorem ref_eq : val_main_v31 (F := Ideal) x0 x1 x2 x3 x4 x5 x6 x7 x8 = layer x0 x1 x2 x3 x4 x5 x6 x7 x8 := by
  funext i
  obtain ⟨r, q, rfl⟩ : ∃ (r : Fin 100000) (q : Fin 64), i = ix2 r q := ⟨i 0, i 1, eq_ix2 i⟩
  unfold layer
  rw [nodeMlp_ix2, val_main_v31_apply, val_main_v28_apply, bias30]
  unfold nodeMlpAt
  simp only [lidx28, ridx28, hidden_eq, Ideal.addf_def]

end Cert.ReferenceIdeal.RefValue

end
-- ==== Proof.lean ====
/-
  One edge-conditioned message-passing layer on a graph of 100,000 nodes and 1,600,000 edges, as two tiled
  pallas_calls around a host gather and a host scatter-add, against the plain array program.

  Both programs compute, over the extended reals,

      msg[e]  = max(x[src e] + (attr[e] · W_edge + b_edge), 0)        for every edge e,
      aggr[n] = the sum of msg[e] over the edges e with dst e = n      (from zero),
      out[n]  = max((x[n] + aggr[n]) · W1 + b1, 0) · W2 + b2          for every node n.

  The kernel forms `msg` in 200 row blocks of 8000 edges and `out` in 10 row blocks of 10000 nodes, narrows the
  operands of its matrix products to bf16 (the identity on the extended reals) and accumulates each product from
  zero; the reference forms whole-array products and multiplies `x` by the constant one first. Each row block is the
  restriction of one function of the whole arrays, the blocks cover the arrays, and 1·x = x; the gather and the
  scatter-add are the same operations applied to the same operands on both sides and are never opened. No step uses
  that the inputs are finite: both sides sum the same products in the same order, and the only law used is 1·x = x,
  which holds for every extended real.

  The modules: `Spec` (the two dense stages, entry by entry), `KernelPay` (what each body stores, at an entry),
  `EdgeRegion` / `NodeRegion` (blocks to whole arrays), `Plumb` / `LayerFn` (the shared index plumbing and the layer
  as one term), `KernelHost` (the host operations around the calls), `KernelRun` (the run with its result named),
  `KernelValue` (the kernel's result is the layer), `RefValue` (the reference's result is the layer).
-/
import proofs.«149815_j89567247991615_1_alg».proof.Defs
import proofs.«149815_j89567247991615_1_alg».proof.Proof.Gen.Kernel
import proofs.«149815_j89567247991615_1_alg».proof.Proof.Gen.Kernel.Skeleton
import proofs.«149815_j89567247991615_1_alg».proof.Proof.Gen.Kernel.Launch
import proofs.«149815_j89567247991615_1_alg».proof.Proof.Gen.Kernel.Points
import proofs.«149815_j89567247991615_1_alg».proof.Proof.Gen.Kernel.Frame
import proofs.«149815_j89567247991615_1_alg».proof.Proof.Gen.KernelIdeal
import proofs.«149815_j89567247991615_1_alg».proof.Proof.Gen.KernelIdeal.Skeleton
import proofs.«149815_j89567247991615_1_alg».proof.Proof.Gen.KernelIdeal.Launch
import proofs.«149815_j89567247991615_1_alg».proof.Proof.Gen.KernelIdeal.Points
import proofs.«149815_j89567247991615_1_alg».proof.Proof.Gen.KernelIdeal.Frame
import proofs.«149815_j89567247991615_1_alg».proof.Proof.Gen.ReferenceIdeal
import proofs.«149815_j89567247991615_1_alg».proof.Proof.Gen.ReferenceIdeal.Run
import proofs.«149815_j89567247991615_1_alg».proof.Proof.Gen.ReferenceIdeal.Read
import proofs.«149815_j89567247991615_1_alg».proof.Proof.Gen.Pre_finite_inputs
import proofs.«149815_j89567247991615_1_alg».proof.Proof.KernelValue
import proofs.«149815_j89567247991615_1_alg».proof.Proof.RefValue
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- From memories agreeing on the arguments both programs end with the layer of the arguments. -/
theorem algebraic : Cert.algebraic_KernelIdeal_ReferenceIdeal := by
  intro m ρ m' ρ' _ hagree
  refine ⟨fun c => Cert.KernelIdeal.Plumb.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  refine (Cert.ReferenceIdeal.Read.val_main_v31_eq _ _ _ _ _ _ _ _ _).trans ?_
  rw [Cert.ReferenceIdeal.RefValue.ref_eq, e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
